-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x112x112 : Shape := ⟨4, ![32, 128, 112, 112]⟩
abbrev S_ : Shape := ⟨0, ![]⟩

class Facts : Prop where
  bcast_S_S32x128x112x112 : S_.BroadcastsInDim S32x128x112x112 (![] : Fin 0 → Fin S32x128x112x112.rank)
  reducesTo_S32x128x112x112_S_d0_1_2_3 : S32x128x112x112.ReducesTo [0, 1, 2, 3] S_
  h_S_ : 0 < S_.numel

variable [Facts]

def fn {F : FTy → Type} [FloatOps F] (main_arg0 : FVec F S32x128x112x112 .f32) : IVec S_ 1 :=
  let main_v0 : FVec F S32x128x112x112 .f32 := Host.absf main_arg0
  let main_cst : FVec F S_ .f32 := constant S_ .f32 0x7F800000#32
  let main_v1 : FVec F S32x128x112x112 .f32 := broadcastInDim S32x128x112x112 ![] bcast_S_S32x128x112x112 main_cst
  let main_v2 : IVec S32x128x112x112 1 := cmpf .olt main_v0 main_v1
  let main_c : IVec S_ 1 := constantI S_ 1 1#1
  let main_v3 : IVec S_ 1 := (fun x v => Host.reduce IntOp.andi x v reducesTo_S32x128x112x112_S_d0_1_2_3 h_S_) main_v2 main_c
  main_v3
-- ==== Kernel.lean ====
abbrev S32x128x112x112 : Shape := ⟨4, ![32, 128, 112, 112]⟩
abbrev S32x64x2x12544 : Shape := ⟨4, ![32, 64, 2, 12544]⟩
abbrev S32x64x12544 : Shape := ⟨3, ![32, 64, 12544]⟩
abbrev S1x64x2x12544 : Shape := ⟨4, ![1, 64, 2, 12544]⟩
abbrev S1x64x12544 : Shape := ⟨3, ![1, 64, 12544]⟩
abbrev S1x64x1x12544 : Shape := ⟨4, ![1, 64, 1, 12544]⟩
abbrev S32x64x112x112 : Shape := ⟨4, ![32, 64, 112, 112]⟩

abbrev nBuf : Space → Nat
  | .hbm => 4
  | .vmem => 4
  | .smem => 0
  | _ => 0

abbrev bufTy : (tb : Table) → Fin (tcTables nBuf tb) → BufTy
  | .hbm, ⟨0, _⟩ => ⟨S32x128x112x112, .f32⟩
  | .hbm, ⟨1, _⟩ => ⟨S32x64x2x12544, .f32⟩
  | .hbm, ⟨2, _⟩ => ⟨S32x64x12544, .f32⟩
  | .hbm, ⟨3, _⟩ => ⟨S32x64x112x112, .f32⟩
  | .local _ .vmem, ⟨0, _⟩ => ⟨S1x64x2x12544, .f32⟩
  | .local _ .vmem, ⟨1, _⟩ => ⟨S1x64x2x12544, .f32⟩
  | .local _ .vmem, ⟨2, _⟩ => ⟨S1x64x12544, .f32⟩
  | .local _ .vmem, ⟨3, _⟩ => ⟨S1x64x12544, .f32⟩
  | _, _ => ⟨S32x128x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x128x112x112_S32x64x2x12544 : S32x128x112x112.ShapeCasts S32x64x2x12544
  inb_S1x64x2x12544_S1x64x1x12544_0_0_0_0 : ∀ a, (![0, 0, 0, 0] : Fin 4 → Nat) a + S1x64x1x12544.size a ≤ S1x64x2x12544.size a
  h_S1x64x1x12544 : 0 < S1x64x1x12544.numel
  shapeCasts_S1x64x1x12544_S1x64x12544 : S1x64x1x12544.ShapeCasts S1x64x12544
  inb_S1x64x2x12544_S1x64x1x12544_0_0_1_0 : ∀ a, (![0, 0, 1, 0] : Fin 4 → Nat) a + S1x64x1x12544.size a ≤ S1x64x2x12544.size a
  inb_S1x64x12544_S1x64x12544_0_0_0 : ∀ a, (![0, 0, 0] : Fin 3 → Nat) a + S1x64x12544.size a ≤ S1x64x12544.size a
  h_S1x64x12544 : 0 < S1x64x12544.numel
  shapeCasts_S32x64x12544_S32x64x112x112 : S32x64x12544.ShapeCasts S32x64x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2x12544.size a ≤ S32x64x2x12544.size a
  hwx0_0 : ∀ i : grid0.Coords, EltTy.bits .f32 = 32 ∨ (Rect.block (s := S32x64x2x12544) S1x64x2x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x12544.size a ≤ S32x64x12544.size a
  hwx0_1 : ∀ i : grid0.Coords, EltTy.bits .f32 = 32 ∨ (Rect.block (s := S32x64x12544) S1x64x12544.size (cc0_transform_1 i) (hinb0_1 i)).WholeWords (EltTy.packing .f32)

variable [Facts₀]

abbrev win0_0 : Pipeline.Window sig grid0 :=
  Pipeline.Window.ofSpec (Memref.whole main_v0) S1x64x2x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x12544.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x128x112x112 : Shape := ⟨4, ![32, 128, 112, 112]⟩
abbrev S32x64x2x112x112 : Shape := ⟨5, ![32, 64, 2, 112, 112]⟩
abbrev S_ : Shape := ⟨0, ![]⟩
abbrev S32x64x112x112 : Shape := ⟨4, ![32, 64, 112, 112]⟩

abbrev nBuf : Space → Nat
  | .hbm => 4
  | .vmem => 0
  | .smem => 0
  | _ => 0

abbrev bufTy : (tb : Table) → Fin (tcTables nBuf tb) → BufTy
  | .hbm, ⟨0, _⟩ => ⟨S32x128x112x112, .f32⟩
  | .hbm, ⟨1, _⟩ => ⟨S32x64x2x112x112, .f32⟩
  | .hbm, ⟨2, _⟩ => ⟨S_, .f32⟩
  | .hbm, ⟨3, _⟩ => ⟨S32x64x112x112, .f32⟩
  | _, _ => ⟨S32x128x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S32x128x112x112_S32x64x2x112x112 : S32x128x112x112.ShapeCasts S32x64x2x112x112
  reducesTo_S32x64x2x112x112_S32x64x112x112_d2 : S32x64x2x112x112.ReducesTo [2] S32x64x112x112
  h_S_ : 0 < S_.numel

variable [Facts₀]

class Facts : Prop extends Facts₀ where

variable [Facts]
-- ==== Proof.PairMax.lean ====
/-
  The specification: pooling adjacent channel pairs by their maximum.

  For an array `x` of extended reals over [32, 128, 112, 112] the pooled array over [32, 64, 112, 112] is

      y[b, c, h, w] = max (x[b, 2c, h, w]) (x[b, 2c + 1, h, w]).

  The 128 channels are 64 adjacent pairs; each pair is replaced by the larger of its two entries, position by
  position. Nothing here needs finiteness: `max` is total on the extended reals, and `-∞` is its identity.
-/
import Idealize.ShloMosaic.PureOps.Ideal
import Idealize.ShloMosaic.Lib.ValueIdx

noncomputable section

namespace Cert.PairMax

open Idealize.ShloMosaic Idealize.ShloMosaic.ValueIdx

/-- Member `k` (0 or 1) of channel pair `c`: channel `2c + k`. -/
def chan (c : Fin 64) (k : Fin 2) : Fin 128 :=
  ⟨2 * c.val + k.val, by have := c.isLt; have := k.isLt; omega⟩

theorem chan_val (c : Fin 64) (k : Fin 2) : (chan c k).val = 2 * c.val + k.val := rfl

/-- The pooled value at batch `b`, channel pair `c`, row `h`, column `w`. -/
def poolAt (x : (⟨4, ![32, 128, 112, 112]⟩ : Shape).Idx → EReal) (b : Fin 32) (c : Fin 64) (h w : Fin 112) : EReal :=
  max (x (ix4 b (chan c 0) h w)) (x (ix4 b (chan c 1) h w))

/-- The pooled array. -/
def pool (x : (⟨4, ![32, 128, 112, 112]⟩ : Shape).Idx → EReal) : (⟨4, ![32, 64, 112, 112]⟩ : Shape).Idx → EReal :=
  fun i => poolAt x (i 0) (i 1) (i 2) (i 3)

/-- A fold of `max` from `-∞` over a pair is the larger of the two. -/
theorem fold_max_pair (g : Fin 2 → EReal) :
    (Finset.univ : Finset (Fin 2)).fold max (⊥ : EReal) g = max (g 0) (g 1) := by
  simp only [Fin.univ_succ, Finset.fold_cons, Finset.fold_map, Finset.univ_unique, Finset.fold_singleton]
  show max (g 0) (max (g 1) ⊥) = max (g 0) (g 1)
  rw [max_bot_right]

/-- The word `0xFF800000` read as a single-precision float is `-∞`. -/
theorem ofBits_neg_inf : Ideal.ofBits .f32 0xFF800000#32 = (⊥ : EReal) := by
  simp [Ideal.ofBits, Ideal.ieee]

end Cert.PairMax

end
-- ==== Proof.RefPool.lean ====
/-
  The reference computes the pooled array.

  The reference views `x` over [32, 128, 112, 112] as [32, 64, 2, 112, 112] — a row-major re-reading that sends
  entry (b, c, k, h, w) to x[b, 2c + k, h, w] — and folds `max` from `-∞` over the axis of length 2.
  At (b, c, h, w) that fold is max (x[b, 2c, h, w]) (x[b, 2c + 1, h, w]).
-/
import proofs.«150333_j70875550319036_2_alg».proof.Proof.Gen.ReferenceIdeal.Read
import proofs.«150333_j70875550319036_2_alg».proof.Proof.PairMax
import Idealize.ShloMosaic.PureOps.Reduce
import Idealize.ShloMosaic.PureOps.Ideal.Laws
import Idealize.ShloMosaic.Lib.ValueIdx

noncomputable section

namespace Cert.RefPool

open Idealize.ShloMosaic Idealize.ShloMosaic.ValueIdx
open Cert.ReferenceIdeal Cert.ReferenceIdeal.Gen Cert.ReferenceIdeal.Read Cert.PairMax

/-- Dropping axis 2 of [32, 64, 2, 112, 112] leaves [32, 64, 112, 112]. -/
theorem reduces_pair : S32x64x2x112x112.Reduces [2] S32x64x112x112 := by decide

/-- The reduced index (b, c, h, w) with member `k` put back on the dropped axis is (b, c, k, h, w). -/
theorem lift_pair (b : Fin 32) (c : Fin 64) (h w : Fin 112) (k : Fin (S32x64x2x112x112.size 2)) :
    reduces_pair.lift (ix4 b c h w) k = ix5 b c (⟨k.val, k.isLt⟩ : Fin 2) h w := by
  funext a; apply Fin.ext
  fin_cases a <;> rfl

/-- The five-axis view at (b, c, k, h, w) is `x` at (b, 2c + k, h, w): the two have one row-major position. -/
theorem view_apply (x : S32x128x112x112.Idx → EReal) (b : Fin 32) (c : Fin 64) (k : Fin 2) (h w : Fin 112) :
    val_main_v0 (F := Ideal) x (ix5 b c k h w) = x (ix4 b (chan c k) h w) := by
  rw [val_main_v0_apply]
  refine congrArg x (funext fun a => Fin.ext ?_)
  have hb := b.isLt; have hc := c.isLt; have hk := k.isLt; have hh := h.isLt; have hw := w.isLt
  match a with
  | ⟨0, _⟩ => show ((((b.val * 64 + c.val) * 2 + k.val) * 112 + h.val) * 112 + w.val) / 1605632 = b.val; omega
  | ⟨1, _⟩ => show ((((b.val * 64 + c.val) * 2 + k.val) * 112 + h.val) * 112 + w.val) / 12544 % 128 = 2 * c.val + k.val; omega
  | ⟨2, _⟩ => show ((((b.val * 64 + c.val) * 2 + k.val) * 112 + h.val) * 112 + w.val) / 112 % 112 = h.val; omega
  | ⟨3, _⟩ => show ((((b.val * 64 + c.val) * 2 + k.val) * 112 + h.val) * 112 + w.val) % 112 = w.val; omega

/-- The reference's result is the pooled array. -/
theorem ref_eq_pool (x : S32x128x112x112.Idx → EReal) : val_main_v1 (F := Ideal) x = pool x := by
  funext i
  obtain ⟨b, c, h, w, rfl⟩ : ∃ (b : Fin 32) (c : Fin 64) (h w : Fin 112), i = ix4 b c h w :=
    ⟨i 0, i 1, i 2, i 3, eq_ix4 i⟩
  unfold val_main_v1
  rw [Host.reduce_eq_fold_single (FloatOps.maximumf (F := Ideal) (φ := .f32)) _ _ reducesTo_S32x64x2x112x112_S32x64x112x112_d2 reduces_pair h_S_]
  have hf : (val_main_v0 (F := Ideal) x ∘ reduces_pair.lift (ix4 b c h w))
      = fun k : Fin 2 => x (ix4 b (chan c k) h w) :=
    funext fun k => by
      show val_main_v0 (F := Ideal) x (reduces_pair.lift (ix4 b c h w) k) = _
      rw [lift_pair, view_apply]
      rfl
  rw [hf]
  show (Finset.univ : Finset (Fin 2)).fold max (Ideal.ofBits .f32 0xFF800000#32) _ = _
  rw [ofBits_neg_inf, fold_max_pair]
  rfl

end Cert.RefPool

end
-- ==== Proof.BodyMax.lean ====
/-
  What the kernel body stores, entry by entry.

  The body holds one batch's block `x0` over [1, 64, 2, 12544]: 64 channel pairs, the two members of a pair, and the
  12544 = 112 · 112 positions of a channel flattened. It reads the slab of first members (offset 0 on the pair axis)
  and the slab of second members (offset 1), each over [1, 64, 1, 12544], forgets the unit axis, and stores their
  entrywise maximum over [1, 64, 12544]. So the stored block at (a, c, l) is max (x0[a, c, 0, l]) (x0[a, c, 1, l]).
-/
import proofs.«150333_j70875550319036_2_alg».proof.Proof.Gen.KernelIdeal.Frame
import Idealize.ShloMosaic.Lib.Pipeline.Value
import Idealize.ShloMosaic.Lib.ValueIdx

noncomputable section

namespace Cert.BodyMax

open Idealize.ShloMosaic Idealize.ShloMosaic.ValueIdx Idealize.ShloMosaic.Pipeline
open Cert.KernelIdeal Cert.KernelIdeal.Gen

/-- A slab over [1, 64, 1, 12544] with its unit axis forgotten, at (a, c, l), is the slab at (a, c, 0, l):
    the two indices have one row-major position. -/
theorem slab_apply (v : S1x64x1x12544.Idx → EReal) (a : Fin 1) (c : Fin 64) (l : Fin 12544) :
    shapeCast S1x64x12544 v shapeCasts_S1x64x1x12544_S1x64x12544 (ix3 a c l) = v (ix4 a c 0 l) := by
  refine shapeCast_apply v _ (ix3 a c l) (ix4 a c 0 l) ?_
  rw [Shape.rowMajor_val_four, Shape.rowMajor_val_three]
  show ((a.val * 64 + c.val) * 1 + 0) * 12544 + l.val = (a.val * 64 + c.val) * 12544 + l.val
  omega

/-- The stored value from the two loaded slabs, at (a, c, l): the larger of the two slabs' entries there. -/
theorem pay_apply (v0 v2 : Vec Ideal S1x64x1x12544 .f32) (a : Fin 1) (c : Fin 64) (l : Fin 12544) :
    k0_pay1 (F := Ideal) v0 v2 (ix3 a c l) = max (v0 (ix4 a c 0 l)) (v2 (ix4 a c 0 l)) := by
  unfold k0_pay1
  show max (shapeCast S1x64x12544 v0 shapeCasts_S1x64x1x12544_S1x64x12544 (ix3 a c l))
      (shapeCast S1x64x12544 v2 shapeCasts_S1x64x1x12544_S1x64x12544 (ix3 a c l)) = _
  rw [slab_apply, slab_apply]

/-- Position (a, c, 0, l) of the slab of first members is position (a, c, 0, l) of the block. -/
theorem first_idx (a : Fin 1) (c : Fin 64) (l : Fin 12544) :
    r0_0.idx (ix4 a c (0 : Fin 1) l) = (ix4 a c (0 : Fin 2) l : S1x64x2x12544.Idx) := by
  funext d; apply Fin.ext
  match d with
  | ⟨0, _⟩ => show 0 + 1 * a.val = a.val; omega
  | ⟨1, _⟩ => show 0 + 1 * c.val = c.val; omega
  | ⟨2, _⟩ => show 0 + 1 * 0 = 0; omega
  | ⟨3, _⟩ => show 0 + 1 * l.val = l.val; omega

/-- Position (a, c, 0, l) of the slab of second members is position (a, c, 1, l) of the block. -/
theorem second_idx (a : Fin 1) (c : Fin 64) (l : Fin 12544) :
    r0_1.idx (ix4 a c (0 : Fin 1) l) = (ix4 a c (1 : Fin 2) l : S1x64x2x12544.Idx) := by
  funext d; apply Fin.ext
  match d with
  | ⟨0, _⟩ => show 0 + 1 * a.val = a.val; omega
  | ⟨1, _⟩ => show 0 + 1 * c.val = c.val; omega
  | ⟨2, _⟩ => show 1 + 1 * 0 = 1; omega
  | ⟨3, _⟩ => show 0 + 1 * l.val = l.val; omega

/-- What the body leaves in the output block, at (a, c, l): the larger member of pair `c` at position `l`. -/
theorem out_apply (x0 : Vec Ideal S1x64x2x12544 .f32) (a : Fin 1) (c : Fin 64) (l : Fin 12544) :
    out0_1 (F := Ideal) x0 (ix3 a c l) = max (x0 (ix4 a c 0 l)) (x0 (ix4 a c 1 l)) := by
  have hz : (![0, 0, 0] : Fin 3 → Nat) = fun _ => 0 := funext fun d => by fin_cases d <;> rfl
  unfold out0_1
  rw [View.canon_unit_zero hz, pay_apply]
  show max (x0 (r0_0.idx (ix4 a c (0 : Fin 1) l))) (x0 (r0_1.idx (ix4 a c (0 : Fin 1) l))) = _
  rw [first_idx, second_idx]

end Cert.BodyMax

end
-- ==== Proof.Layout.lean ====
/-
  The two re-readings around the kernel call, and the kernel's whole result as the pooled array.

  Before the call the program re-reads `x` over [32, 128, 112, 112] as [32, 64, 2, 12544]: entry (b, c, k, l) with
  l = 112·h + w is x[b, 2c + k, h, w] (one row-major position). The call produces, over [32, 64, 12544], at
  (b, c, l) the larger of the view's entries (b, c, 0, l) and (b, c, 1, l). After the call the program re-reads that
  as [32, 64, 112, 112]: entry (b, c, h, w) is the call's entry (b, c, 112·h + w). Composed:
  max (x[b, 2c, h, w]) (x[b, 2c + 1, h, w]), the pooled array.
-/
import proofs.«150333_j70875550319036_2_alg».proof.Proof.Gen.KernelIdeal
import proofs.«150333_j70875550319036_2_alg».proof.Proof.PairMax
import Idealize.ShloMosaic.Lib.Pipeline.Value
import Idealize.ShloMosaic.Lib.ValueIdx

noncomputable section

namespace Cert.Layout

open Idealize.ShloMosaic Idealize.ShloMosaic.ValueIdx
open Cert.KernelIdeal Cert.KernelIdeal.Gen Cert.PairMax

/-- Row `h`, column `w` of a 112 × 112 channel, flattened: position 112·h + w of 12544. -/
def flat (h w : Fin 112) : Fin 12544 :=
  ⟨h.val * 112 + w.val, by have := h.isLt; have := w.isLt; omega⟩

/-- Every flattened position is some row and column. -/
theorem flat_surj (l : Fin 12544) : ∃ h w : Fin 112, l = flat h w :=
  ⟨⟨l.val / 112, by have := l.isLt; omega⟩, ⟨l.val % 112, Nat.mod_lt _ (by decide)⟩,
    Fin.ext (by show l.val = l.val / 112 * 112 + l.val % 112; omega)⟩

/-- Over the four-axis view [32, 64, 2, 12544]: at (b, c, l) the larger of the pair's two members. -/
def rowMax (A : S32x64x2x12544.Idx → EReal) : S32x64x12544.Idx → EReal :=
  fun j => max (A (ix4 (j 0) (j 1) (0 : Fin 2) (j 2))) (A (ix4 (j 0) (j 1) (1 : Fin 2) (j 2)))

/-- The view before the call at (b, c, k, 112·h + w) is x[b, 2c + k, h, w]. -/
theorem entry_apply (x : S32x128x112x112.Idx → EReal) (b : Fin 32) (c : Fin 64) (k : Fin 2) (h w : Fin 112) :
    shapeCast S32x64x2x12544 x shapeCasts_S32x128x112x112_S32x64x2x12544 (ix4 b c k (flat h w))
      = x (ix4 b (chan c k) h w) := by
  refine shapeCast_apply x _ (ix4 b c k (flat h w)) (ix4 b (chan c k) h w) ?_
  rw [Shape.rowMajor_val_four, Shape.rowMajor_val_four]
  show ((b.val * 128 + (2 * c.val + k.val)) * 112 + h.val) * 112 + w.val
      = ((b.val * 64 + c.val) * 2 + k.val) * 12544 + (h.val * 112 + w.val)
  omega

/-- The re-reading after the call at (b, c, h, w) is the call's entry (b, c, 112·h + w). -/
theorem exit_apply (B : S32x64x12544.Idx → EReal) (b : Fin 32) (c : Fin 64) (h w : Fin 112) :
    shapeCast S32x64x112x112 B shapeCasts_S32x64x12544_S32x64x112x112 (ix4 b c h w) = B (ix3 b c (flat h w)) := by
  refine shapeCast_apply B _ (ix4 b c h w) (ix3 b c (flat h w)) ?_
  rw [Shape.rowMajor_val_three, Shape.rowMajor_val_four]
  show (b.val * 64 + c.val) * 12544 + (h.val * 112 + w.val) = ((b.val * 64 + c.val) * 112 + h.val) * 112 + w.val
  omega

/-- View, pairwise maximum, re-reading: the pooled array. -/
theorem kernel_eq_pool (x : S32x128x112x112.Idx → EReal) :
    shapeCast S32x64x112x112 (rowMax (shapeCast S32x64x2x12544 x shapeCasts_S32x128x112x112_S32x64x2x12544))
      shapeCasts_S32x64x12544_S32x64x112x112 = pool x := by
  funext i
  obtain ⟨b, c, h, w, rfl⟩ : ∃ (b : Fin 32) (c : Fin 64) (h w : Fin 112), i = ix4 b c h w :=
    ⟨i 0, i 1, i 2, i 3, eq_ix4 i⟩
  rw [exit_apply]
  show max (shapeCast S32x64x2x12544 x shapeCasts_S32x128x112x112_S32x64x2x12544 (ix4 b c (0 : Fin 2) (flat h w)))
      (shapeCast S32x64x2x12544 x shapeCasts_S32x128x112x112_S32x64x2x12544 (ix4 b c (1 : Fin 2) (flat h w))) = _
  rw [entry_apply, entry_apply]
  rfl

end Cert.Layout

end
-- ==== Proof.KernelPool.lean ====
/-
  The kernel program's result is the pooled array.

  The call runs one grid point per batch `t` (32 of them). Point `t` is handed block `t` of the four-axis view
  (all of batch `t`: [1, 64, 2, 12544]) and writes back block `t` of the call's result ([1, 64, 12544]): at
  (c, l) the larger of the pair's two members. Those 32 blocks tile the result, so the result over
  [32, 64, 12544] is the pairwise maximum of the whole view; the re-readings before and after the call make it
  the pooled array of `x`.
-/
import proofs.«150333_j70875550319036_2_alg».proof.Proof.Gen.KernelIdeal.Frame
import proofs.«150333_j70875550319036_2_alg».proof.Proof.BodyMax
import proofs.«150333_j70875550319036_2_alg».proof.Proof.Layout
import Idealize.ShloMosaic.Lib.Pipeline.Value
import Idealize.ShloMosaic.Lib.StableHlo.Run
import Idealize.ShloMosaic.Lib.ValueIdx

set_option maxRecDepth 16384

noncomputable section

namespace Cert.KernelPool

open Idealize.ShloMosaic Idealize.ShloMosaic.TcCoe Idealize.SL.Sem Idealize.ShloMosaic.ValueIdx
open Idealize.ShloMosaic.Pipeline (Dat)
open Cert.KernelIdeal Cert.KernelIdeal.Gen Cert.PairMax Cert.Layout

variable (m : (ℓ : Loc nD τ sig) → Buf (Elt Ideal) ℓ) (ρ : Dev nD → PrngReg)

/-- Where the blocks sit: at point `t` both windows take block `t` on the batch axis and block 0 on every other. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- What point `t` writes back is block `t` of the pairwise maximum of the view the call was handed. -/
theorem flushed_eq (c : Dev nD) (t : Fin cfg0.N) :
    (dats m 0 c).flushed 1 t = ((cfg0.win 1).blk t).view.read (Elt Ideal) (rowMax (V m c main_v0)) := by
  show (cfg0.win 1).cut (grid0.coords t) ((dats m 0 c).after 1 t) = _
  rw [after0_1]
  refine funext fun (j : S1x64x12544.Idx) => ?_
  obtain ⟨a, cc, l, rfl⟩ : ∃ (a : Fin 1) (cc : Fin 64) (l : Fin 12544), j = ix3 a cc l := ⟨j 0, j 1, j 2, eq_ix3 j⟩
  refine (BodyMax.out_apply (iblk m c 0 t) a cc l).trans ?_
  obtain ⟨e0, e1, e2, e3, f0, f1, f2⟩ := idx_facts t
  have ha : a.val = 0 := by have := a.isLt; omega
  have hcc : cc.val < 64 := cc.isLt
  have hl : l.val < 12544 := l.isLt
  have hk : ∀ k : Fin 2, ((cfg0.win 0).blk t).view.emb (ix4 a cc k l)
      = ix4 ((((cfg0.win 1).blk t).view.emb (ix3 a cc l)) 0) ((((cfg0.win 1).blk t).view.emb (ix3 a cc l)) 1) k
          ((((cfg0.win 1).blk t).view.emb (ix3 a cc l)) 2) := by
    intro k
    funext d; apply Fin.ext
    match d with
    | ⟨0, _⟩ => show win0_0.index t (0 : Fin 4) * 1 + 1 * a.val = win0_1.index t (0 : Fin 3) * 1 + 1 * a.val; omega
    | ⟨1, _⟩ => show win0_0.index t (1 : Fin 4) * 64 + 1 * cc.val = win0_1.index t (1 : Fin 3) * 64 + 1 * cc.val; omega
    | ⟨2, _⟩ => show win0_0.index t (2 : Fin 4) * 2 + 1 * k.val = k.val; omega
    | ⟨3, _⟩ => show win0_0.index t (3 : Fin 4) * 12544 + 1 * l.val = win0_1.index t (2 : Fin 3) * 12544 + 1 * l.val; omega
  show @max EReal _ (V m c main_v0 (((cfg0.win 0).blk t).view.emb (ix4 a cc (0 : Fin 2) l)))
      (V m c main_v0 (((cfg0.win 0).blk t).view.emb (ix4 a cc (1 : Fin 2) l)))
    = rowMax (V m c main_v0) (((cfg0.win 1).blk t).view.emb (ix3 a cc l))
  rw [hk 0, hk 1]
  rfl

/-- An index of the call's result is in point `t`'s block iff each coordinate is in the block's range. -/
theorem mem_blk (t : Fin cfg0.N) (i : S32x64x12544.Idx) :
    i ∈ ((cfg0.win 1).blk t).view.set ↔ ∀ a : Fin 3, win0_1.index t a * S1x64x12544.size a ≤ (i a).val
      ∧ (i a).val < win0_1.index t a * S1x64x12544.size a + S1x64x12544.size a := by
  show i ∈ ((View.whole main_v1).slice (win0_1.rect t)).set ↔ _
  rw [View.set_slice_whole, Rect.mem_set_unit]
  exact Iff.rfl

/-- Every index of the call's result is in the block of the point named by its batch coordinate. -/
theorem cover (i : S32x64x12544.Idx) :
    ∃ t : Fin cfg0.N, (cfg0.win 1).flush t = true ∧ i ∈ ((cfg0.win 1).blk t).view.set := by
  have h0 : (i 0).val < 32 := (i 0).isLt
  have h1 : (i 1).val < 64 := (i 1).isLt
  have h2 : (i 2).val < 12544 := (i 2).isLt
  obtain ⟨t, ht⟩ : ∃ t : Fin cfg0.N, t.val = (i 0).val := ⟨⟨(i 0).val, lt_of_lt_of_eq h0 N_0.symm⟩, rfl⟩
  obtain ⟨e0, e1, e2, e3, f0, f1, f2⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 12544 ≤ (i 2).val ∧ (i 2).val < win0_1.index t (2 : Fin 3) * 12544 + 12544; omega

/-- The call's result after the run: the pairwise maximum of the view it was handed. -/
theorem final (c : Dev nD) : (dats m 0 c).arrAt 1 cfg0.N = rowMax (V m c main_v0) :=
  (dats m 0 c).arrAt_eq_of_cover 1 (rowMax (V m c main_v0)) (fun t _ => flushed_eq m c t) cover

/-- The view the call is handed is the launch contents of `x` re-read over [32, 64, 2, 12544]. -/
theorem entry_view (c : Dev nD) :
    (V m c main_v0 : S32x64x2x12544.Idx → EReal)
      = shapeCast S32x64x2x12544 (m ((c : Thread nD τ).loc main_arg0)) shapeCasts_S32x128x112x112_S32x64x2x12544 := by
  show StableHlo.after hostOps0 (fun b => m (c, b)) (Proc.devRef .tc main_v0) = _
  after_results
  rfl

/-- The program's result buffer after the run: the call's result re-read over [32, 64, 112, 112]. -/
theorem result_view (c : Dev nD) :
    (Pipeline.afterTail₀ cfgs (dats m) 0 (V0 m) [hostOps1] c main_v2 : S32x64x112x112.Idx → EReal)
      = shapeCast S32x64x112x112 ((dats m 0 c).arrAt 1 cfg0.N) shapeCasts_S32x64x12544_S32x64x112x112 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-- The program's result buffer after the run is the pooled array of the launch contents of `x`. -/
theorem result_eq (c : Dev nD) :
    (Pipeline.afterTail₀ cfgs (dats m) 0 (V0 m) [hostOps1] c main_v2 : S32x64x112x112.Idx → EReal)
      = pool (m ((c : Thread nD τ).loc main_arg0)) := by
  rw [result_view, final, entry_view]
  exact kernel_eq_pool _

/-- Every weakly fair execution of the kernel program terminates without a fault, its result the pooled array of
    `x` and `x` itself unchanged. -/
theorem run : θ_run defs (onTc (τ := τ) (main (F := Ideal))) ⟨m, fun _ => 0, ρ⟩ fun r => ∀ c : Dev nD,
      r.2.mem ((c.tc : Thread nD τ).loc main_v2) = pool (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans
          (W_main_arg0 m (dats m) c)⟩)
    (run_main m ρ)

end Cert.KernelPool

end
-- ==== Proof.lean ====
/-
  Pooling adjacent channel pairs by their maximum: the kernel program and its reference agree.

  For `x` over [32, 128, 112, 112] both programs produce, over [32, 64, 112, 112],

      y[b, c, h, w] = max (x[b, 2c, h, w]) (x[b, 2c + 1, h, w])          (PairMax.lean).

  The kernel program re-reads `x` as [32, 64, 2, 12544] (pair, member, flattened position), takes batch by batch the
  entrywise maximum of the two members' slabs (BodyMax.lean, KernelPool.lean), and re-reads the [32, 64, 12544] result
  as [32, 64, 112, 112] (Layout.lean). The reference re-reads `x` as [32, 64, 2, 112, 112] and folds `max` from `-∞`
  over the member axis (RefPool.lean). The two re-readings name the same entry of `x`, and `-∞` is the identity of
  `max` on the extended reals, so the results are equal entry by entry — for every input, finite or not: the
  precondition is never opened. Each program terminates without a fault and leaves `x` unchanged. The claim's fourth conjunct, relating the
  kernel's text to its reading over the extended reals, is stated as `True`: that reading changes no operation.
-/
import proofs.«150333_j70875550319036_2_alg».proof.Defs
import proofs.«150333_j70875550319036_2_alg».proof.Proof.Gen.Kernel
import proofs.«150333_j70875550319036_2_alg».proof.Proof.Gen.Kernel.Skeleton
import proofs.«150333_j70875550319036_2_alg».proof.Proof.Gen.Kernel.Launch
import proofs.«150333_j70875550319036_2_alg».proof.Proof.Gen.Kernel.Points
import proofs.«150333_j70875550319036_2_alg».proof.Proof.Gen.Kernel.Frame
import proofs.«150333_j70875550319036_2_alg».proof.Proof.Gen.KernelIdeal
import proofs.«150333_j70875550319036_2_alg».proof.Proof.Gen.KernelIdeal.Skeleton
import proofs.«150333_j70875550319036_2_alg».proof.Proof.Gen.KernelIdeal.Launch
import proofs.«150333_j70875550319036_2_alg».proof.Proof.Gen.KernelIdeal.Points
import proofs.«150333_j70875550319036_2_alg».proof.Proof.Gen.KernelIdeal.Frame
import proofs.«150333_j70875550319036_2_alg».proof.Proof.Gen.ReferenceIdeal
import proofs.«150333_j70875550319036_2_alg».proof.Proof.Gen.ReferenceIdeal.Run
import proofs.«150333_j70875550319036_2_alg».proof.Proof.Gen.ReferenceIdeal.Read
import proofs.«150333_j70875550319036_2_alg».proof.Proof.Gen.Pre_finite_inputs
import Idealize.ShloMosaic.Adequacy
import Idealize.ShloMosaic.Init

import proofs.«150333_j70875550319036_2_alg».proof.Proof.PairMax
import proofs.«150333_j70875550319036_2_alg».proof.Proof.RefPool
import proofs.«150333_j70875550319036_2_alg».proof.Proof.KernelPool

noncomputable section

namespace Cert.Proof

open Idealize.ShloMosaic Idealize.SL.Sem

/-- The kernel program as printed runs and leaves `x` unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves `x` unchanged: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on `x`, both programs end with the pooled array of `x`. -/
theorem algebraic : Cert.algebraic_KernelIdeal_ReferenceIdeal := by
  intro m ρ m' ρ' _ hagree
  refine ⟨fun c => Cert.PairMax.pool (m ((c.tc : Thread Cert.KernelIdeal.nD Cert.KernelIdeal.τ).loc Cert.KernelIdeal.main_arg0)),
    Cert.KernelPool.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.RefPool.ref_eq_pool, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
